-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The accelerator program's run with its result named.

  Every weakly fair execution of the program terminates without a fault; the argument arrays end as launched, and the
  result array ends at the contents the last segment boundary assigns to it: the second region's output array after
  all twenty write-backs. The boundary contents are a fold through the program: the launch memory, the host operations
  before the first region, that region's write-backs, the host operations between the regions, the second region's
  write-backs.
-/
import proofs.«153909_j27917287424274_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: termination without a fault, the result array at the last boundary's contents, the arguments as launched. -/
theorem run_result : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KRun

end
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.Body.lean ====
/-
  The accelerator's two block bodies, read at one entry over the extended reals.

  A body receives a 5000-row block of neighbour means `x0`, the same rows of the node features `x1`, the two weight
  matrices already transposed (`x2`, `x4` : [128, 128], input feature first) and the bias as a one-row matrix `x3`.
  It forms the two products with zero accumulators, adds them, adds the bias row to every row, and (first layer only)
  clamps below at zero. Over the extended reals the roundings to the narrower float format and the casts to the same
  shape are identities, and a product with one contracted axis into a zero accumulator is the plain sum, so at row `p`
  and output feature `j`

      body (p, j) = (Σ_k x0[p,k]·x2[k,j] + Σ_k x1[p,k]·x4[k,j]) + x3[0,j],

  under `max(·, 0)` for the first layer.
-/
import proofs.«153909_j27917287424274_1_alg».proof.Proof.Gen.KernelIdeal.Skeleton
import proofs.«153909_j27917287424274_1_alg».proof.Proof.LibPlainDot
import Idealize.ShloMosaic.Lib.Pipeline.Value

noncomputable section

open scoped BigOperators

namespace Cert.KernelIdeal.Body

open Idealize.ShloMosaic Idealize.ShloMosaic.ValueIdx Cert.KernelIdeal Cert.KernelIdeal.Gen

/-- The bias row repeated down the 5000 rows, at an entry: row `0` of the one-row matrix. -/
theorem biasRows_apply (x3 : FVec Ideal S1x128 .f32) (p : Fin 5000) (j : Fin 128) :
    broadcastTo S5000x128 x3 broadcasts_S1x128_S5000x128 (ix2 p j) = x3 (ix2 (0 : Fin 1) j) := by
  refine broadcastTo_apply x3 _ (ix2 p j) (ix2 (0 : Fin 1) j) fun a => ?_
  match a with
  | ⟨0, _⟩ => rfl
  | ⟨1, _⟩ => rfl

/-- One product of the body at an entry: the rounded operands are the operands, the zero accumulator adds nothing. -/
theorem prod_apply (l : FVec Ideal S5000x128 .bf16) (r : FVec Ideal S128x128 .bf16) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) :=
  PlainDot.matmul_zero_apply dot_S5000x128_S128x128_S5000x128_1_0_0_1_n_n none rfl rfl
    (fun _ _ => rfl) (fun _ _ => rfl) (fun _ _ => rfl) (fun _ _ => rfl) l r p j

/-- The first layer's body at row `p`, output feature `j`. -/
theorem k0_pay1_apply (x0 x1 : Vec Ideal S5000x128 .f32) (x2 x4 : Vec Ideal S128x128 .f32) (x3 : Vec Ideal S1x128 .f32)
    (p : Fin 5000) (j : Fin 128) :
    Gen.k0_pay1 (F := Ideal) x0 x1 x2 x4 x3 (ix2 p j)
      = max (((∑ k : Fin 128, x0 (ix2 p k) * x2 (ix2 k j)) + ∑ k : Fin 128, x1 (ix2 p k) * x4 (ix2 k j)) + x3 (ix2 (0 : Fin 1) j))
          (Ideal.ofBits .f32 0x00000000#32) := by
  unfold Gen.k0_pay1
  rw [maximumf_apply, addf_apply, addf_apply, broadcast_apply, prod_apply, prod_apply, biasRows_apply]
  simp only [truncf_apply, shapeCast_self]
  rfl

/-- The second layer's body at row `p`, output feature `j`: the same without the clamp. -/
theorem k1_pay1_apply (x0 x1 : Vec Ideal S5000x128 .f32) (x2 x4 : Vec Ideal S128x128 .f32) (x3 : Vec Ideal S1x128 .f32)
    (p : Fin 5000) (j : Fin 128) :
    Gen.k1_pay1 (F := Ideal) x0 x1 x2 x4 x3 (ix2 p j)
      = ((∑ k : Fin 128, x0 (ix2 p k) * x2 (ix2 k j)) + ∑ k : Fin 128, x1 (ix2 p k) * x4 (ix2 k j)) + x3 (ix2 (0 : Fin 1) j) := by
  unfold Gen.k1_pay1
  rw [addf_apply, addf_apply, prod_apply, prod_apply, biasRows_apply]
  simp only [truncf_apply, shapeCast_self]

end Cert.KernelIdeal.Body

end
-- ==== Proof.Spec.lean ====
/-
  The mathematics of a two-layer GraphSAGE network with mean aggregation, stated once over plain arrays of extended
  reals and shared by both programs.

  For node features `f : [100000, 128]`, the neighbour sum `agg f : [100000, 128]` (a gather of source rows followed by a
  scatter-add into destination rows) and the in-degree `cnt : [100000]`, one layer is

      lin (agg f / max(cnt, 1)) f W_l b W_r,     lin μ f W_l b W_r (r, j) = Σ_k μ[r,k]·W_l[j,k] + b[j] + Σ_k f[r,k]·W_r[j,k],

  and the network is `lin ∘ relu ∘ lin`. The neighbour sum and the in-degree enter as parameters: nothing here depends
  on how they are computed, only on their being the same on both sides.

  Two laws join the two programs. One program multiplies the neighbour sum by the reciprocal `1 / max(cnt, 1)`, the
  other divides by `max(cnt, 1)`: on the extended reals `a · (1 / y) = a / y` whenever `y ≠ 0`, and `max(cnt, 1) ≥ 1`
  is never `0`, whatever `cnt` is — no finiteness is needed. One program adds the bias last, the other between the two
  products: addition of extended reals is commutative and associative.
-/
import Idealize.ShloMosaic.PureOps.Ideal
import Idealize.ShloMosaic.Lib.ValueIdx
import Idealize.ShloMosaic.Lib.IdealHost

noncomputable section

open scoped BigOperators

namespace Cert.Sage

open Idealize.ShloMosaic Idealize.ShloMosaic.ValueIdx

/-- Node features `[100000, 128]`. -/
abbrev SN : Shape := ⟨2, ![100000, 128]⟩
/-- A weight matrix `[128, 128]` (output feature, input feature). -/
abbrev SW : Shape := ⟨2, ![128, 128]⟩
/-- A bias `[128]`. -/
abbrev SB : Shape := ⟨1, ![128]⟩
/-- A per-node scalar `[100000]`. -/
abbrev SC : Shape := ⟨1, ![100000]⟩

/-- The float word of `1.0`. -/
abbrev one : EReal := Ideal.ofBits .f32 0x3F800000#32
/-- The float word of `0.0`. -/
abbrev zero : EReal := Ideal.ofBits .f32 0x00000000#32

/-- The in-degree clipped below at one: `max(cnt[r], 1)`. -/
def clip (cnt : SC.Idx → EReal) (r : Fin 100000) : EReal := max (cnt (ix1 r)) one

/-- The neighbour mean: the neighbour sum divided by the clipped in-degree of the row. -/
def mean (a : SN.Idx → EReal) (cnt : SC.Idx → EReal) : SN.Idx → EReal :=
  fun i => Ideal.div (a i) (clip cnt (i 0))

/-- One linear stage at row `r`, output feature `j`: `Σ_k μ[r,k]·W_l[j,k] + b[j] + Σ_k f[r,k]·W_r[j,k]`. -/
def linAt (μ f : SN.Idx → EReal) (wl : SW.Idx → EReal) (b : SB.Idx → EReal) (wr : SW.Idx → EReal)
    (r : Fin 100000) (j : Fin 128) : EReal :=
  ((∑ k : Fin 128, μ (ix2 r k) * wl (ix2 j k)) + b (ix1 j)) + ∑ k : Fin 128, f (ix2 r k) * wr (ix2 j k)

/-- The linear stage as an array. -/
def lin (μ f : SN.Idx → EReal) (wl : SW.Idx → EReal) (b : SB.Idx → EReal) (wr : SW.Idx → EReal) : SN.Idx → EReal :=
  fun i => linAt μ f wl b wr (i 0) (i 1)

/-- `max(·, 0)`, entry by entry. -/
def relu (a : SN.Idx → EReal) : SN.Idx → EReal := fun i => max (a i) zero

/-- The hidden features: `relu` of the first layer. -/
def hidden (agg : (SN.Idx → EReal) → SN.Idx → EReal) (cnt : SC.Idx → EReal)
    (x : SN.Idx → EReal) (w1l : SW.Idx → EReal) (b1 : SB.Idx → EReal) (w1r : SW.Idx → EReal) : SN.Idx → EReal :=
  relu (lin (mean (agg x) cnt) x w1l b1 w1r)

/-- The network: the second layer on the hidden features. -/
def net (agg : (SN.Idx → EReal) → SN.Idx → EReal) (cnt : SC.Idx → EReal)
    (x : SN.Idx → EReal) (w1l : SW.Idx → EReal) (b1 : SB.Idx → EReal) (w1r : SW.Idx → EReal)
    (w2l : SW.Idx → EReal) (b2 : SB.Idx → EReal) (w2r : SW.Idx → EReal) : SN.Idx → EReal :=
  lin (mean (agg (hidden agg cnt x w1l b1 w1r)) cnt) (hidden agg cnt x w1l b1 w1r) w2l b2 w2r

/-- The clipped in-degree is at least one, so it is not zero — for any extended real `cnt[r]`. -/
theorem clip_ne_zero (cnt : SC.Idx → EReal) (r : Fin 100000) : clip cnt r ≠ 0 := by
  have h1 : (1 : EReal) ≤ clip cnt r := by
    unfold clip one; rw [Ideal.ofBits_one_f32]; exact le_max_right _ _
  exact (lt_of_lt_of_le zero_lt_one h1).ne'

/-- Multiplying by the reciprocal of a nonzero extended real is dividing by it. -/
theorem mul_recip (a y : EReal) (hy : y ≠ 0) : a * Ideal.div one y = Ideal.div a y := by
  unfold one; rw [Ideal.ofBits_one_f32]
  unfold Ideal.div; rw [if_neg hy, if_neg hy, one_mul]

/-- The scaled neighbour sum is the neighbour mean. -/
theorem mul_recip_clip (a : SN.Idx → EReal) (cnt : SC.Idx → EReal) (i : SN.Idx) :
    a i * Ideal.div one (clip cnt (i 0)) = mean a cnt i :=
  mul_recip _ _ (clip_ne_zero cnt _)

/-- The bias added after both products is the bias added between them. -/
theorem bias_last (A B b : EReal) : (A + B) + b = (A + b) + B := add_right_comm A B b

end Cert.Sage

end
-- ==== Proof.KForm.lean ====
/-
  The linear stage in the form the accelerator computes it, and its equality with the specification's.

  The accelerator's body receives the weights already transposed (`W_lᵀ[k, j] = W_l[j, k]`), the bias as a one-row
  matrix, and adds the bias after both products:

      linK μ f W_lᵀ b_row W_rᵀ (r, j) = (Σ_k μ[r,k]·W_lᵀ[k,j] + Σ_k f[r,k]·W_rᵀ[k,j]) + b_row[0,j].

  With the transposes and the row read back this is the specification's `lin`, by commutativity and associativity of
  the extended reals' addition alone.
-/
import proofs.«153909_j27917287424274_1_alg».proof.Proof.Spec

noncomputable section

open scoped BigOperators

namespace Cert.Sage

open Idealize.ShloMosaic Idealize.ShloMosaic.ValueIdx

/-- A bias as a one-row matrix `[1, 128]`. -/
abbrev SR : Shape := ⟨2, ![1, 128]⟩

/-- The accelerator's linear stage at row `r`, output feature `j`. -/
def linKAt (μ f : SN.Idx → EReal) (wlT : SW.Idx → EReal) (brow : SR.Idx → EReal) (wrT : SW.Idx → EReal)
    (r : Fin 100000) (j : Fin 128) : EReal :=
  ((∑ k : Fin 128, μ (ix2 r k) * wlT (ix2 k j)) + ∑ k : Fin 128, f (ix2 r k) * wrT (ix2 k j)) + brow (ix2 (0 : Fin 1) j)

/-- The accelerator's linear stage as an array. -/
def linK (μ f : SN.Idx → EReal) (wlT : SW.Idx → EReal) (brow : SR.Idx → EReal) (wrT : SW.Idx → EReal) : SN.Idx → EReal :=
  fun i => linKAt μ f wlT brow wrT (i 0) (i 1)

/-- With the weights read back through their transposes and the bias through its row, the accelerator's stage is the
    specification's. -/
theorem linK_eq_lin (μ f : SN.Idx → EReal) (wl wr wlT wrT : SW.Idx → EReal) (b : SB.Idx → EReal) (brow : SR.Idx → EReal)
    (hl : ∀ (k j : Fin 128), wlT (ix2 k j) = wl (ix2 j k)) (hr : ∀ (k j : Fin 128), wrT (ix2 k j) = wr (ix2 j k))
    (hb : ∀ j : Fin 128, brow (ix2 (0 : Fin 1) j) = b (ix1 j)) :
    linK μ f wlT brow wrT = lin μ f wl b wr := by
  funext i
  obtain ⟨r, j, rfl⟩ : ∃ (r : Fin 100000) (j : Fin 128), i = ix2 r j := ⟨i 0, i 1, eq_ix2 i⟩
  show linKAt μ f wlT brow wrT r j = linAt μ f wl b wr r j
  unfold linKAt linAt
  simp only [hl, hr, hb]
  exact bias_last _ _ _

end Cert.Sage

end
-- ==== Proof.Region.lean ====
/-
  The accelerator's two launches as whole-array functions of what they find in memory.

  Each launch runs its body once per block of 5000 rows (20 blocks), on rows [5000·t, 5000·t + 5000) of the neighbour
  means and of the node features and on the whole of the two transposed weight matrices and of the bias row, and writes
  the same rows of its output. Block `t`'s entry (p, j) is therefore entry (5000·t + p, j) of ONE function of the whole
  arrays — the linear stage in the accelerator's form, under `max(·, 0)` for the first launch —, and the 20 blocks tile
  the 100000 rows: row `r` lies in block `r / 5000`. So after the launch the output array is that function.
-/
import proofs.«153909_j27917287424274_1_alg».proof.Proof.Gen.KernelIdeal.Frame
import proofs.«153909_j27917287424274_1_alg».proof.Proof.Body
import proofs.«153909_j27917287424274_1_alg».proof.Proof.KForm
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access. -/
theorem zeroOff : (![0, 0] : Fin 2 → Nat) = fun _ => 0 := funext fun a => by fin_cases a <;> rfl

/-! ## The first launch -/

/-- The block indices of the first launch at grid point `t`: the row-blocked operands and the output sit at block
    (t, 0); the weights and the bias row at block (0, 0). Decided over the 20 points. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Rows of the neighbour means: entry (p, k) of block `t` is entry (5000·t + p, k) of the array. -/
theorem meanBlk0 (c : Dev nD) (t : Fin cfg0.N) (p : Fin 5000) (k : Fin 128) (r : Fin 100000)
    (hr : r.val = t.val * 5000 + p.val) :
    Gen.iblk0 (F := Ideal) V c 0 t (ix2 p k) = (V c main_v24 : Cert.Sage.SN.Idx → EReal) (ix2 r k) := by
  obtain ⟨e0, e1, -⟩ := blockIdx0 t
  unfold Gen.iblk0
  show V c main_v24 (((cfg0.win 0).blk t).view.emb (ix2 p k)) = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Rows of the node features: entry (p, k) of block `t` is entry (5000·t + p, k) of the array. -/
theorem featBlk0 (c : Dev nD) (t : Fin cfg0.N) (p : Fin 5000) (k : Fin 128) (r : Fin 100000)
    (hr : r.val = t.val * 5000 + p.val) :
    Gen.iblk0 (F := Ideal) V c 1 t (ix2 p k) = (V c main_arg0 : Cert.Sage.SN.Idx → EReal) (ix2 r k) := by
  obtain ⟨-, -, e0, e1, -⟩ := blockIdx0 t
  unfold Gen.iblk0
  show V c main_arg0 (((cfg0.win 1).blk t).view.emb (ix2 p k)) = _
  refine congrArg _ (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The transposed neighbour weights are staged whole. -/
theorem wlBlk0 (c : Dev nD) (t : Fin cfg0.N) (k j : Fin 128) :
    Gen.iblk0 (F := Ideal) V c 2 t (ix2 k j) = (V c main_v25 : Cert.Sage.SW.Idx → EReal) (ix2 k j) := by
  obtain ⟨-, -, -, -, e0, e1, -⟩ := blockIdx0 t
  unfold Gen.iblk0
  show V c main_v25 (((cfg0.win 2).blk t).view.emb (ix2 k j)) = _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The bias row is staged whole. -/
theorem biasBlk0 (c : Dev nD) (t : Fin cfg0.N) (j : Fin 128) :
    Gen.iblk0 (F := Ideal) V c 3 t (ix2 (0 : Fin 1) j) = (V c main_v27 : Cert.Sage.SR.Idx → EReal) (ix2 (0 : Fin 1) j) := by
  obtain ⟨-, -, -, -, -, -, e0, e1, -⟩ := blockIdx0 t
  unfold Gen.iblk0
  show V c main_v27 (((cfg0.win 3).blk t).view.emb (ix2 (0 : Fin 1) j)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 128 + 1 * j.val = j.val; rw [e1]; omega

/-- The transposed self weights are staged whole. -/
theorem wrBlk0 (c : Dev nD) (t : Fin cfg0.N) (k j : Fin 128) :
    Gen.iblk0 (F := Ideal) V c 4 t (ix2 k j) = (V c main_v26 : Cert.Sage.SW.Idx → EReal) (ix2 k j) := by
  obtain ⟨-, -, -, -, -, -, -, -, e0, e1, -⟩ := blockIdx0 t
  unfold Gen.iblk0
  show V c main_v26 (((cfg0.win 4).blk t).view.emb (ix2 k j)) = _
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

/-- What the first launch computes, as one function of the arrays it finds: the clamped linear stage. -/
abbrev layer0 (c : Dev nD) : Cert.Sage.SN.Idx → EReal :=
  Cert.Sage.relu (Cert.Sage.linK (V c main_v24) (V c main_arg0) (V c main_v25) (V c main_v27) (V c main_v26))

/-- Grid point `t` writes back block `t` of that function. -/
theorem flushed0_eq (c : Dev nD) (t : Fin cfg0.N) :
    (Gen.dat0 (F := Ideal) V c).flushed 5 t = ((cfg0.win 5).blk t).view.read (Elt Ideal) (layer0 V c) := by
  show (cfg0.win 5).cut (grid0.coords t) ((Gen.dat0 V c).after 5 t) = _
  rw [Gen.after0_5]
  unfold Gen.out0_5
  rw [View.canon_unit_zero zeroOff]
  simp only [View.ld_unit_zero (S := S5000x128) zeroOff, View.ld_unit_zero (S := S128x128) zeroOff,
    View.ld_unit_zero (S := S1x128) zeroOff]
  refine funext fun (y : S5000x128.Idx) => ?_
  obtain ⟨p, j, rfl⟩ : ∃ (p : Fin 5000) (j : Fin 128), y = ix2 p j := ⟨y 0, y 1, eq_ix2 y⟩
  have hN : cfg0.N = 20 := Gen.N_0
  have ht : t.val < 20 := by have := t.isLt; omega
  obtain ⟨r, hr⟩ : ∃ r : Fin 100000, r.val = t.val * 5000 + p.val := ⟨⟨t.val * 5000 + p.val, by omega⟩, rfl⟩
  obtain ⟨-, -, -, -, -, -, -, -, -, -, e0, e1⟩ := blockIdx0 t
  show Gen.k0_pay1 (F := Ideal) (Gen.iblk0 V c 0 t) (Gen.iblk0 V c 1 t) (Gen.iblk0 V c 2 t) (Gen.iblk0 V c 4 t)
      (Gen.iblk0 V c 3 t) (ix2 p j) = layer0 V c (((cfg0.win 5).blk t).view.emb (ix2 p j))
  have hemb : layer0 V c (((cfg0.win 5).blk t).view.emb (ix2 p j)) = layer0 V c (ix2 r j) := by
    refine congrArg _ (funext fun a => Fin.ext ?_)
    match a with
    | ⟨0, _⟩ => show win0_5.index t (0 : Fin 2) * 5000 + 1 * p.val = r.val; rw [e0, hr]; omega
    | ⟨1, _⟩ => show win0_5.index t (1 : Fin 2) * 128 + 1 * j.val = j.val; rw [e1]; omega
  rw [hemb]
  refine (Body.k0_pay1_apply _ _ _ _ _ p j).trans ?_
  simp only [meanBlk0 V c t p _ r hr, featBlk0 V c t p _ r hr, wlBlk0 V c t, wrBlk0 V c t, biasBlk0 V c t]
  rfl

/-- An index of the output array lies in block `t` iff each coordinate lies in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- The 20 blocks tile the rows: row `r` lies in block `r / 5000`. -/
theorem cover0 (i : S100000x128.Idx) :
    ∃ t : Fin cfg0.N, (cfg0.win 5).flush t = true ∧ i ∈ ((cfg0.win 5).blk t).view.set := by
  have hN : cfg0.N = 20 := Gen.N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := blockIdx0 t
  refine ⟨t, Gen.flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- After the first launch its output array is the clamped linear stage of the arrays it found. -/
theorem final0 (c : Dev nD) :
    (Gen.dat0 (F := Ideal) V c).arrAt 5 cfg0.N
      = Cert.Sage.relu (Cert.Sage.linK (V c main_v24) (V c main_arg0) (V c main_v25) (V c main_v27) (V c main_v26)) :=
  (Gen.dat0 (F := Ideal) V c).arrAt_eq_of_cover 5 (layer0 V c) (fun t _ => flushed0_eq V c t) cover0

/-! ## The second launch -/

/-- The block indices of the second launch at grid point `t`: the row-blocked operands and the output sit at block
    (t, 0); the weights and the bias row at block (0, 0). Decided over the 20 points. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Rows of the neighbour means: entry (p, k) of block `t` is entry (5000·t + p, k) of the array. -/
theorem meanBlk1 (c : Dev nD) (t : Fin cfg1.N) (p : Fin 5000) (k : Fin 128) (r : Fin 100000)
    (hr : r.val = t.val * 5000 + p.val) :
    Gen.iblk1 (F := Ideal) V c 0 t (ix2 p k) = (V c main_v41 : Cert.Sage.SN.Idx → EReal) (ix2 r k) := by
  obtain ⟨e0, e1, -⟩ := blockIdx1 t
  unfold Gen.iblk1
  show V c main_v41 (((cfg1.win 0).blk t).view.emb (ix2 p k)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Rows of the hidden features (the first launch's output): entry (p, k) of block `t` is entry (5000·t + p, k) of the
    array. -/
theorem featBlk1 (c : Dev nD) (t : Fin cfg1.N) (p : Fin 5000) (k : Fin 128) (r : Fin 100000)
    (hr : r.val = t.val * 5000 + p.val) :
    Gen.iblk1 (F := Ideal) V c 1 t (ix2 p k) = (V c main_v28 : Cert.Sage.SN.Idx → EReal) (ix2 r k) := by
  obtain ⟨-, -, e0, e1, -⟩ := blockIdx1 t
  unfold Gen.iblk1
  show V c main_v28 (((cfg1.win 1).blk t).view.emb (ix2 p k)) = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The transposed neighbour weights are staged whole. -/
theorem wlBlk1 (c : Dev nD) (t : Fin cfg1.N) (k j : Fin 128) :
    Gen.iblk1 (F := Ideal) V c 2 t (ix2 k j) = (V c main_v42 : Cert.Sage.SW.Idx → EReal) (ix2 k j) := by
  obtain ⟨-, -, -, -, e0, e1, -⟩ := blockIdx1 t
  unfold Gen.iblk1
  show V c main_v42 (((cfg1.win 2).blk t).view.emb (ix2 k j)) = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * j.val = j.val; rw [e1]; omega

/-- The bias row is staged whole. -/
theorem biasBlk1 (c : Dev nD) (t : Fin cfg1.N) (j : Fin 128) :
    Gen.iblk1 (F := Ideal) V c 3 t (ix2 (0 : Fin 1) j) = (V c main_v44 : Cert.Sage.SR.Idx → EReal) (ix2 (0 : Fin 1) j) := by
  obtain ⟨-, -, -, -, -, -, e0, e1, -⟩ := blockIdx1 t
  unfold Gen.iblk1
  show V c main_v44 (((cfg1.win 3).blk t).view.emb (ix2 (0 : Fin 1) j)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * j.val = j.val; rw [e1]; omega

/-- The transposed self weights are staged whole. -/
theorem wrBlk1 (c : Dev nD) (t : Fin cfg1.N) (k j : Fin 128) :
    Gen.iblk1 (F := Ideal) V c 4 t (ix2 k j) = (V c main_v43 : Cert.Sage.SW.Idx → EReal) (ix2 k j) := by
  obtain ⟨-, -, -, -, -, -, -, -, e0, e1, -⟩ := blockIdx1 t
  unfold Gen.iblk1
  show V c main_v43 (((cfg1.win 4).blk t).view.emb (ix2 k j)) = _
  refine congrArg _ (funext fun a => Fin.ext ?_)
  match a with
  | ⟨0, _⟩ => show win1_4.index t (0 : Fin 2) * 128 + 1 * k.val = k.val; rw [e0]; omega
  | ⟨1, _⟩ => show win1_4.index t (1 : Fin 2) * 128 + 1 * j.val = j.val; rw [e1]; omega

/-- What the second launch computes, as one function of the arrays it finds: the linear stage, unclamped. -/
abbrev layer1 (c : Dev nD) : Cert.Sage.SN.Idx → EReal :=
  Cert.Sage.linK (V c main_v41) (V c main_v28) (V c main_v42) (V c main_v44) (V c main_v43)

/-- Grid point `t` writes back block `t` of that function. -/
theorem flushed1_eq (c : Dev nD) (t : Fin cfg1.N) :
    (Gen.dat1 (F := Ideal) V c).flushed 5 t = ((cfg1.win 5).blk t).view.read (Elt Ideal) (layer1 V c) := by
  show (cfg1.win 5).cut (grid1.coords t) ((Gen.dat1 V c).after 5 t) = _
  rw [Gen.after1_5]
  unfold Gen.out1_5
  rw [View.canon_unit_zero zeroOff]
  simp only [View.ld_unit_zero (S := S5000x128) zeroOff, View.ld_unit_zero (S := S128x128) zeroOff,
    View.ld_unit_zero (S := S1x128) zeroOff]
  refine funext fun (y : S5000x128.Idx) => ?_
  obtain ⟨p, j, rfl⟩ : ∃ (p : Fin 5000) (j : Fin 128), y = ix2 p j := ⟨y 0, y 1, eq_ix2 y⟩
  have hN : cfg1.N = 20 := Gen.N_1
  have ht : t.val < 20 := by have := t.isLt; omega
  obtain ⟨r, hr⟩ : ∃ r : Fin 100000, r.val = t.val * 5000 + p.val := ⟨⟨t.val * 5000 + p.val, by omega⟩, rfl⟩
  obtain ⟨-, -, -, -, -, -, -, -, -, -, e0, e1⟩ := blockIdx1 t
  show Gen.k1_pay1 (F := Ideal) (Gen.iblk1 V c 0 t) (Gen.iblk1 V c 1 t) (Gen.iblk1 V c 2 t) (Gen.iblk1 V c 4 t)
      (Gen.iblk1 V c 3 t) (ix2 p j) = layer1 V c (((cfg1.win 5).blk t).view.emb (ix2 p j))
  have hemb : layer1 V c (((cfg1.win 5).blk t).view.emb (ix2 p j)) = layer1 V c (ix2 r j) := by
    refine congrArg _ (funext fun a => Fin.ext ?_)
    match a with
    | ⟨0, _⟩ => show win1_5.index t (0 : Fin 2) * 5000 + 1 * p.val = r.val; rw [e0, hr]; omega
    | ⟨1, _⟩ => show win1_5.index t (1 : Fin 2) * 128 + 1 * j.val = j.val; rw [e1]; omega
  rw [hemb]
  refine (Body.k1_pay1_apply _ _ _ _ _ p j).trans ?_
  simp only [meanBlk1 V c t p _ r hr, featBlk1 V c t p _ r hr, wlBlk1 V c t, wrBlk1 V c t, biasBlk1 V c t]
  rfl

/-- An index of the output array lies in block `t` iff each coordinate lies in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- The 20 blocks tile the rows: row `r` lies in block `r / 5000`. -/
theorem cover1 (i : S100000x128.Idx) :
    ∃ t : Fin cfg1.N, (cfg1.win 5).flush t = true ∧ i ∈ ((cfg1.win 5).blk t).view.set := by
  have hN : cfg1.N = 20 := Gen.N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := blockIdx1 t
  refine ⟨t, Gen.flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- After the second launch its output array is the linear stage of the arrays it found. -/
theorem final1 (c : Dev nD) :
    (Gen.dat1 (F := Ideal) V c).arrAt 5 cfg1.N
      = Cert.Sage.linK (V c main_v41) (V c main_v28) (V c main_v42) (V c main_v44) (V c main_v43) :=
  (Gen.dat1 (F := Ideal) V c).arrAt_eq_of_cover 5 (layer1 V c) (fun t _ => flushed1_eq V c t) cover1

end Cert.KernelIdeal.Region

end
-- ==== Proof.Agg.lean ====
/-
  The neighbour sum and the in-degree of the graph, as the host computes them from the edge list, stated once.

  The edge list `ei : [2, 1600000]` holds the source nodes in row 0 and the destination nodes in row 1. A negative source
  index is wrapped by adding the node count (the array-indexing convention); the gather then reads row `src[e]` of the
  features for every edge `e`, and the scatter-add sums those rows into row `dst[e]`. The in-degree is the scatter-add of
  ones along the same destinations. The dimension records of the gather and the two scatters, and the shape facts of
  the layout operations, are bundled as a parameter: each program supplies its own, and equal bundles give equal
  functions. Nothing below looks inside the gather or the scatters.
-/
import proofs.«153909_j27917287424274_1_alg».proof.Proof.Spec
import Idealize.ShloMosaic.PureOps.Contract
import Idealize.ShloMosaic.PureOps.ShapeOps
import Idealize.ShloMosaic.PureOps.Vector

noncomputable section

namespace Cert.Sage

open Idealize.ShloMosaic

/-- The scalar shape. -/
abbrev S0 : Shape := ⟨0, ![]⟩
/-- The edge list `[2, 1600000]`. -/
abbrev SEI : Shape := ⟨2, ![2, 1600000]⟩
/-- One row of the edge list `[1, 1600000]`. -/
abbrev S1E : Shape := ⟨2, ![1, 1600000]⟩
/-- A per-edge scalar `[1600000]`. -/
abbrev SE : Shape := ⟨1, ![1600000]⟩
/-- A column of per-edge indices `[1600000, 1]`. -/
abbrev SE1 : Shape := ⟨2, ![1600000, 1]⟩
/-- Per-edge features `[1600000, 128]`. -/
abbrev SEF : Shape := ⟨2, ![1600000, 128]⟩

/-- The shape facts and dimension records the aggregation's operations take. -/
structure Dims where
  sl0 : SEI.Slices ![0, 0] S1E
  sl1 : SEI.Slices ![1, 0] S1E
  sc : S1E.ShapeCasts SE
  bE : S0.BroadcastsInDim SE (![] : Fin 0 → Fin SE.rank)
  bE1 : SE.BroadcastsInDim SE1 (![0] : Fin 1 → Fin SE1.rank)
  bN : S0.BroadcastsInDim SN (![] : Fin 0 → Fin SN.rank)
  bC : S0.BroadcastsInDim SC (![] : Fin 0 → Fin SC.rank)
  gd : GatherDims SN SE1 SEF
  sdr : ScatterDims SN SE1 SEF
  sdv : ScatterDims SC SE1 SE

/-- The source node of every edge: row 0 of the edge list. -/
def src (d : Dims) (ei : IVec SEI 32) : IVec SE 32 :=
  shapeCast SE (extractStridedSlice S1E ![0, 0] ei d.sl0) d.sc

/-- The destination node of every edge: row 1 of the edge list. -/
def dst (d : Dims) (ei : IVec SEI 32) : IVec SE 32 :=
  shapeCast SE (extractStridedSlice S1E ![1, 0] ei d.sl1) d.sc

/-- The gather's index column from the source nodes: a negative index wrapped by the node count. -/
def srcIdxOf (d : Dims) (s : IVec SE 32) : IVec SE1 32 :=
  broadcastInDim SE1 ![0] d.bE1
    (select (cmpi .slt s (broadcastInDim SE ![] d.bE (constantI S0 32 0#32)))
      (addi s (broadcastInDim SE ![] d.bE (constantI S0 32 100000#32))) s)

/-- The scatter's index column from the destination nodes. -/
def dstIdxOf (d : Dims) (t : IVec SE 32) : IVec SE1 32 := broadcastInDim SE1 ![0] d.bE1 t

/-- The neighbour sum of the features `f` along edges with sources `s` and destinations `t`: for every edge, row
    `s[e]` of `f` added into row `t[e]`. -/
def aggOf (d : Dims) (s t : IVec SE 32) (f : FVec Ideal SN .f32) : FVec Ideal SN .f32 :=
  Host.scatterAdd d.sdr (broadcastInDim SN ![] d.bN (constant (F := Ideal) S0 .f32 0x00000000#32)) (dstIdxOf d t)
    (Host.gather d.gd f (srcIdxOf d s))

/-- The in-degree along edges with destinations `t`: for every edge, one added at its destination. -/
def cntOf (d : Dims) (t : IVec SE 32) : FVec Ideal SC .f32 :=
  Host.scatterAdd d.sdv (broadcastInDim SC ![] d.bC (constant (F := Ideal) S0 .f32 0x00000000#32)) (dstIdxOf d t)
    (broadcastInDim SE ![] d.bE (constant (F := Ideal) S0 .f32 0x3F800000#32))

/-- The gather's index column of the edge list. -/
def srcIdx (d : Dims) (ei : IVec SEI 32) : IVec SE1 32 := srcIdxOf d (src d ei)

/-- The scatter's index column of the edge list. -/
def dstIdx (d : Dims) (ei : IVec SEI 32) : IVec SE1 32 := dstIdxOf d (dst d ei)

/-- The neighbour sum of the features `f` over the edge list. -/
def agg (d : Dims) (ei : IVec SEI 32) (f : FVec Ideal SN .f32) : FVec Ideal SN .f32 := aggOf d (src d ei) (dst d ei) f

/-- The in-degree over the edge list. -/
def cnt (d : Dims) (ei : IVec SEI 32) : FVec Ideal SC .f32 := cntOf d (dst d ei)

end Cert.Sage

end
-- ==== Proof.Host.lean ====
/-
  The host operations around the two accelerator regions, read as functions of the buffers they start from.

  Before the first region the host slices the edge list into sources and destinations, counts the in-degree, takes the
  reciprocal of the clipped in-degree, forms the neighbour sum of the input features and scales each row by its
  reciprocal, transposes the two weight matrices and turns the bias into a row. Between the regions it does the same
  with the hidden features the first region wrote, reusing the sources, destinations and reciprocals computed before.
  Each buffer a region stages is stated here as one term of the starting contents, for ANY starting contents.
-/
import proofs.«153909_j27917287424274_1_alg».proof.Proof.Gen.KernelIdeal.Launch
import proofs.«153909_j27917287424274_1_alg».proof.Proof.Agg
import Idealize.ShloMosaic.Lib.StableHlo.Run

noncomputable section

namespace Cert.KernelIdeal.HostRead

open Cert.KernelIdeal Cert.KernelIdeal.Gen Idealize.ShloMosaic Idealize.ShloMosaic.TcCoe Idealize.SL.Sem
open Idealize.ShloMosaic.StableHlo

/-- This program's shape facts and dimension records, bundled for the aggregation. -/
def dims : Cert.Sage.Dims :=
  ⟨Facts₀.slices_S2x1600000_S1x1600000_0_0, Facts₀.slices_S2x1600000_S1x1600000_1_0, Facts₀.shapeCasts_S1x1600000_S1600000,
   Facts₀.bcast_S_S1600000, Facts₀.bcast_S1600000_S1600000x1_0, Facts₀.bcast_S_S100000x128, Facts₀.bcast_S_S100000,
   gather_S100000x128_S1600000x1_S1600000x128_1_0_n_n_0_1_1128, scatter_S100000x128_S1600000x1_S1600000x128_1_0_0_1,
   scatter_S100000_S1600000x1_S1600000_n_0_0_1⟩

/-- The reciprocal of the in-degree clipped below at one, as the host computes it: `1 / max(cnt, 1)`. -/
def recip (cn : FVec Ideal S100000 .f32) : FVec Ideal S100000 .f32 :=
  Host.divf (F := Ideal) (broadcastInDim S100000 ![] Facts₀.bcast_S_S100000 (constant (F := Ideal) S_ .f32 0x3F800000#32))
    (maximumf cn (broadcastInDim S100000 ![] Facts₀.bcast_S_S100000 (constant (F := Ideal) S_ .f32 0x3F800000#32)))

/-- Every row of `a` multiplied by the row's entry of `iv`. -/
def scale (a : FVec Ideal S100000x128 .f32) (iv : FVec Ideal S100000 .f32) : FVec Ideal S100000x128 .f32 :=
  mulf a (broadcastInDim S100000x128 ![0, 1] Facts₀.bcast_S100000x1_S100000x128_0_1
    (broadcastInDim S100000x1 ![0] Facts₀.bcast_S100000_S100000x1_0 iv))

variable (V : Valuation τ sig (Elt Ideal))

/-! ## Before the first region -/

/-- The sources: row 0 of the edge list. -/
theorem pre_src : after hostOps0 V (Proc.devRef .tc main_v1) = Cert.Sage.src dims (V (Proc.devRef .tc main_arg1)) := by
  after_results_simp <;> rfl

/-- The destinations: row 1 of the edge list. -/
theorem pre_dst : after hostOps0 V (Proc.devRef .tc main_v3) = Cert.Sage.dst dims (V (Proc.devRef .tc main_arg1)) := by
  after_results_simp <;> rfl

/-- The reciprocal of the clipped in-degree. -/
theorem pre_recip : after hostOps0 V (Proc.devRef .tc main_v11)
    = recip (Cert.Sage.cnt dims (V (Proc.devRef .tc main_arg1))) := by
  after_results_simp <;> rfl

/-- The scaled neighbour sum of the input features. -/
theorem pre_mean : after hostOps0 V (Proc.devRef .tc main_v24)
    = scale (Cert.Sage.agg dims (V (Proc.devRef .tc main_arg1)) (V (Proc.devRef .tc main_arg0)))
        (recip (Cert.Sage.cnt dims (V (Proc.devRef .tc main_arg1)))) := by
  after_results_simp <;> rfl

/-- The first layer's neighbour weights, transposed. -/
theorem pre_wl : after hostOps0 V (Proc.devRef .tc main_v25)
    = transpose S128x128 [1, 0] (V (Proc.devRef .tc main_arg2)) Facts₀.transposes_S128x128_S128x128_1_0 := by
  after_results_simp <;> rfl

/-- The first layer's root weights, transposed. -/
theorem pre_wr : after hostOps0 V (Proc.devRef .tc main_v26)
    = transpose S128x128 [1, 0] (V (Proc.devRef .tc main_arg4)) Facts₀.transposes_S128x128_S128x128_1_0 := by
  after_results_simp <;> rfl

/-- The first layer's bias as a row. -/
theorem pre_b : after hostOps0 V (Proc.devRef .tc main_v27)
    = shapeCast S1x128 (V (Proc.devRef .tc main_arg3)) Facts₀.shapeCasts_S128_S1x128 := by
  after_results_simp <;> rfl

/-! ## Between the regions -/

/-- The scaled neighbour sum of the hidden features, along the sources, destinations and reciprocals found in their
    buffers. -/
theorem mid_mean : after hostOps1 V (Proc.devRef .tc main_v41)
    = scale (Cert.Sage.aggOf dims (V (Proc.devRef .tc main_v1)) (V (Proc.devRef .tc main_v3)) (V (Proc.devRef .tc main_v28)))
        (V (Proc.devRef .tc main_v11)) := by
  after_results_simp <;> rfl

/-- The second layer's neighbour weights, transposed. -/
theorem mid_wl : after hostOps1 V (Proc.devRef .tc main_v42)
    = transpose S128x128 [1, 0] (V (Proc.devRef .tc main_arg5)) Facts₀.transposes_S128x128_S128x128_1_0 := by
  after_results_simp <;> rfl

/-- The second layer's root weights, transposed. -/
theorem mid_wr : after hostOps1 V (Proc.devRef .tc main_v43)
    = transpose S128x128 [1, 0] (V (Proc.devRef .tc main_arg7)) Facts₀.transposes_S128x128_S128x128_1_0 := by
  after_results_simp <;> rfl

/-- The second layer's bias as a row. -/
theorem mid_b : after hostOps1 V (Proc.devRef .tc main_v44)
    = shapeCast S1x128 (V (Proc.devRef .tc main_arg6)) Facts₀.shapeCasts_S128_S1x128 := by
  after_results_simp <;> rfl

/-- The hidden features pass through the host operations between the regions unchanged. -/
theorem mid_hidden : after hostOps1 V (Proc.devRef .tc main_v28) = V (Proc.devRef .tc main_v28) := by
  after_results_simp

end Cert.KernelIdeal.HostRead

end
-- ==== Proof.KMath.lean ====
/-
  The host's layout and scaling operations on the accelerator side, read at an entry.

  Scaling row `r` of the neighbour sum by `1 / max(cnt[r], 1)` gives the neighbour mean `agg[r, ·] / max(cnt[r], 1)`:
  the clipped in-degree is at least one, so never zero, and on the extended reals a product with the reciprocal of a
  nonzero number is the quotient by it. The transposed weights read at `(k, j)` are the weights at `(j, k)`; the bias
  row read at `(0, j)` is the bias at `j`.
-/
import proofs.«153909_j27917287424274_1_alg».proof.Proof.Host
import proofs.«153909_j27917287424274_1_alg».proof.Proof.KForm
import Idealize.ShloMosaic.Lib.Pipeline.Value
import Idealize.ShloMosaic.Lib.ValueIdx
import Idealize.ShloMosaic.Lib.StableHlo.Run

noncomputable section

namespace Cert.KernelIdeal.HostRead

open Cert.KernelIdeal Idealize.ShloMosaic Idealize.ShloMosaic.ValueIdx

/-- A scalar float constant broadcast over the nodes reads as the constant's value everywhere. -/
theorem splat_apply (w : BitVec 32) (i : S100000.Idx) :
    broadcastInDim S100000 ![] Facts₀.bcast_S_S100000 (constant (F := Ideal) S_ .f32 w) i = Ideal.ofBits .f32 w :=
  broadcastInDim_apply _ Facts₀.bcast_S_S100000 (constant (F := Ideal) S_ .f32 w) i (fun a => a.elim0) (fun a => a.elim0)

/-- The host's reciprocal at node `r` is one over the clipped in-degree. -/
theorem recip_apply (cn : FVec Ideal S100000 .f32) (r : Fin 100000) :
    recip cn (ix1 r) = Ideal.div Cert.Sage.one (Cert.Sage.clip cn r) := by
  show Ideal.div (broadcastInDim S100000 ![] Facts₀.bcast_S_S100000 (constant (F := Ideal) S_ .f32 0x3F800000#32) (ix1 r))
      (max (cn (ix1 r)) (broadcastInDim S100000 ![] Facts₀.bcast_S_S100000 (constant (F := Ideal) S_ .f32 0x3F800000#32) (ix1 r))) = _
  rw [splat_apply]
  rfl

/-- A per-node scalar spread along the features reads at `(r, k)` as its entry at `r`. -/
theorem spread_apply (iv : FVec Ideal S100000 .f32) (r : Fin 100000) (k : Fin 128) :
    broadcastInDim S100000x128 ![0, 1] Facts₀.bcast_S100000x1_S100000x128_0_1
      (broadcastInDim S100000x1 ![0] Facts₀.bcast_S100000_S100000x1_0 iv) (ix2 r k) = iv (ix1 r) := by
  generalize hy : broadcastInDim S100000x1 ![0] Facts₀.bcast_S100000_S100000x1_0 iv = y
  rw [broadcastInDim_apply _ Facts₀.bcast_S100000x1_S100000x128_0_1 y (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])]
  rw [← hy]
  exact broadcastInDim_apply _ Facts₀.bcast_S100000_S100000x1_0 iv (ix2 r (0 : Fin 1)) (ix1 r) (fun a => match a with
    | ⟨0, _⟩ => by show r.val = if (100000 : Nat) = 1 then 0 else r.val; rw [if_neg (by decide)])

/-- Scaling at `(r, k)`: the entry times the row's factor. -/
theorem scale_apply (a : FVec Ideal S100000x128 .f32) (iv : FVec Ideal S100000 .f32) (r : Fin 100000) (k : Fin 128) :
    scale a iv (ix2 r k) = a (ix2 r k) * iv (ix1 r) := by
  show a (ix2 r k) * _ = _
  rw [spread_apply]

/-- Scaling the neighbour sum by the host's reciprocal is the neighbour mean. -/
theorem scale_recip (a : FVec Ideal S100000x128 .f32) (cn : FVec Ideal S100000 .f32) :
    scale a (recip cn) = Cert.Sage.mean a cn := by
  funext i
  obtain ⟨r, k, rfl⟩ : ∃ (r : Fin 100000) (k : Fin 128), i = ix2 r k := ⟨i 0, i 1, eq_ix2 i⟩
  rw [scale_apply, recip_apply]
  exact Cert.Sage.mul_recip_clip a cn (ix2 r k)

/-- The transposed weights at `(k, j)` are the weights at `(j, k)`. -/
theorem transpose_at (w : FVec Ideal S128x128 .f32) (k j : Fin 128) :
    transpose S128x128 [1, 0] w Facts₀.transposes_S128x128_S128x128_1_0 (ix2 k j) = w (ix2 j k) :=
  transpose_apply [1, 0] w Facts₀.transposes_S128x128_S128x128_1_0 (ix2 k j) (ix2 j k) (fun b => match b with
    | ⟨0, _⟩ => rfl
    | ⟨1, _⟩ => rfl)

/-- The bias row at `(0, j)` is the bias at `j`. -/
theorem row_at (b : FVec Ideal S128 .f32) (j : Fin 128) :
    shapeCast S1x128 b Facts₀.shapeCasts_S128_S1x128 (ix2 (0 : Fin 1) j) = b (ix1 j) :=
  shapeCast_apply b Facts₀.shapeCasts_S128_S1x128 (ix2 (0 : Fin 1) j) (ix1 j) (by
    rw [Shape.rowMajor_val_one, Shape.rowMajor_val_two]; show j.val = 0 * 128 + j.val; omega)

/-- One layer in the accelerator's form, on the host's scaled neighbour sum, transposed weights and bias row, is the
    specification's layer on the neighbour mean. -/
theorem layer_eq (a f : FVec Ideal S100000x128 .f32) (cn : FVec Ideal S100000 .f32)
    (wl wr : FVec Ideal S128x128 .f32) (b : FVec Ideal S128 .f32) :
    Cert.Sage.linK (scale a (recip cn)) f
        (transpose S128x128 [1, 0] wl Facts₀.transposes_S128x128_S128x128_1_0)
        (shapeCast S1x128 b Facts₀.shapeCasts_S128_S1x128)
        (transpose S128x128 [1, 0] wr Facts₀.transposes_S128x128_S128x128_1_0)
      = Cert.Sage.lin (Cert.Sage.mean a cn) f wl b wr := by
  rw [scale_recip]
  exact Cert.Sage.linK_eq_lin _ _ wl wr _ _ b _ (transpose_at wl) (transpose_at wr) (row_at b)

/-! ## Buffers the host operations before the first region do not write -/

section Keep

open Cert.KernelIdeal.Gen Idealize.ShloMosaic.TcCoe Idealize.SL.Sem Idealize.ShloMosaic.StableHlo

variable (V : Valuation τ sig (Elt Ideal))

theorem pre_keep_x : after hostOps0 V (Proc.devRef .tc main_arg0) = V (Proc.devRef .tc main_arg0) := by
  after_results_simp
theorem pre_keep_w2l : after hostOps0 V (Proc.devRef .tc main_arg5) = V (Proc.devRef .tc main_arg5) := by
  after_results_simp
theorem pre_keep_b2 : after hostOps0 V (Proc.devRef .tc main_arg6) = V (Proc.devRef .tc main_arg6) := by
  after_results_simp
theorem pre_keep_w2r : after hostOps0 V (Proc.devRef .tc main_arg7) = V (Proc.devRef .tc main_arg7) := by
  after_results_simp

end Keep

end Cert.KernelIdeal.HostRead

end
-- ==== Proof.KernelValue.lean ====
/-
  The accelerator program's result as the network of the specification.

  The result array is read back through the program's segments. The second region leaves the accelerator's linear stage
  of the buffers it stages; those hold the host's scaled neighbour sum of the hidden features, the hidden features
  themselves, and the second layer's transposed weights and bias row. The hidden features are what the first region
  left: `relu` of the same stage on the scaled neighbour sum of the input features. The sources, destinations and
  reciprocal in-degrees are computed once before the first region and are not written again. Scaling by the reciprocal
  is the neighbour mean and the accelerator's stage is the specification's (the pointwise laws), so the result is the
  specification's network on the launch arrays.

  The two regions' closed forms enter as hypotheses `RegionFact0` and `RegionFact1`.
-/
import proofs.«153909_j27917287424274_1_alg».proof.Proof.Gen.KernelIdeal.Frame
import proofs.«153909_j27917287424274_1_alg».proof.Proof.KMath

set_option maxRecDepth 16384

noncomputable section

namespace Cert.KernelIdeal.KValue

open Cert.KernelIdeal Cert.KernelIdeal.Gen Cert.KernelIdeal.HostRead
open Idealize.ShloMosaic Idealize.ShloMosaic.TcCoe Idealize.SL.Sem

/-- The first region's output array after its write-backs is `relu` of the accelerator's linear stage of the arrays it
    stages, whatever the buffers hold when it is entered. -/
abbrev RegionFact0 : Prop :=
  ∀ (V : (c : Dev nD) → (b : Ref sig .tc) → Buf (Elt Ideal) ((c : Thread nD τ).loc b)) (c : Dev nD),
    (dat0 (F := Ideal) V c).arrAt 5 cfg0.N
      = Cert.Sage.relu (Cert.Sage.linK (V c main_v24) (V c main_arg0) (V c main_v25) (V c main_v27) (V c main_v26))

/-- The second region's output array after its write-backs is the accelerator's linear stage of the arrays it stages. -/
abbrev RegionFact1 : Prop :=
  ∀ (V : (c : Dev nD) → (b : Ref sig .tc) → Buf (Elt Ideal) ((c : Thread nD τ).loc b)) (c : Dev nD),
    (dat1 (F := Ideal) V c).arrAt 5 cfg1.N
      = Cert.Sage.linK (V c main_v41) (V c main_v28) (V c main_v42) (V c main_v44) (V c main_v43)

variable (m : (ℓ : Loc nD τ sig) → Buf (Elt Ideal) ℓ) (ρ : Dev nD → PrngReg)

/-- The hidden features: what the first region leaves in its output array. -/
theorem hidden_eq (h0 : RegionFact0) (c : Dev nD) :
    W2 m ρ c (Proc.devRef .tc main_v28)
      = Cert.Sage.hidden (Cert.Sage.agg dims (m ((c : Thread nD τ).loc main_arg1))) (Cert.Sage.cnt dims (m ((c : Thread nD τ).loc main_arg1)))
          (m ((c : Thread nD τ).loc main_arg0)) (m ((c : Thread nD τ).loc main_arg2)) (m ((c : Thread nD τ).loc main_arg3))
          (m ((c : Thread nD τ).loc main_arg4)) := by
  refine (W2_arr m ρ c 5).trans ?_
  rw [h0 (V1 m ρ) c]
  show Cert.Sage.relu (Cert.Sage.linK (StableHlo.after hostOps0 (W0 m ρ c) (Proc.devRef .tc main_v24))
      (StableHlo.after hostOps0 (W0 m ρ c) (Proc.devRef .tc main_arg0))
      (StableHlo.after hostOps0 (W0 m ρ c) (Proc.devRef .tc main_v25))
      (StableHlo.after hostOps0 (W0 m ρ c) (Proc.devRef .tc main_v27))
      (StableHlo.after hostOps0 (W0 m ρ c) (Proc.devRef .tc main_v26))) = _
  rw [pre_mean, pre_keep_x, pre_wl, pre_b, pre_wr, layer_eq]
  rfl

/-- The result: what the second region leaves in its output array. -/
theorem result_eq (h0 : RegionFact0) (h1 : RegionFact1) (c : Dev nD) :
    W4 m ρ c (Proc.devRef .tc main_v45)
      = Cert.Sage.net (Cert.Sage.agg dims (m ((c : Thread nD τ).loc main_arg1))) (Cert.Sage.cnt dims (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  refine (W4_arr m ρ c 5).trans ?_
  rw [h1 (V3 m ρ) c]
  show Cert.Sage.linK (StableHlo.after hostOps1 (W2 m ρ c) (Proc.devRef .tc main_v41))
      (StableHlo.after hostOps1 (W2 m ρ c) (Proc.devRef .tc main_v28))
      (StableHlo.after hostOps1 (W2 m ρ c) (Proc.devRef .tc main_v42))
      (StableHlo.after hostOps1 (W2 m ρ c) (Proc.devRef .tc main_v44))
      (StableHlo.after hostOps1 (W2 m ρ c) (Proc.devRef .tc main_v43)) = _
  rw [mid_mean, mid_hidden, mid_wl, mid_b, mid_wr]
  rw [W2_of_ne m ρ c main_v1 (by decide), W2_of_ne m ρ c main_v3 (by decide), W2_of_ne m ρ c main_v11 (by decide),
    W2_of_ne m ρ c main_arg5 (by decide), W2_of_ne m ρ c main_arg6 (by decide), W2_of_ne m ρ c main_arg7 (by decide)]
  show Cert.Sage.linK (scale (Cert.Sage.aggOf dims (StableHlo.after hostOps0 (W0 m ρ c) (Proc.devRef .tc main_v1))
        (StableHlo.after hostOps0 (W0 m ρ c) (Proc.devRef .tc main_v3)) (W2 m ρ c (Proc.devRef .tc main_v28)))
        (StableHlo.after hostOps0 (W0 m ρ c) (Proc.devRef .tc main_v11)))
      (W2 m ρ c (Proc.devRef .tc main_v28))
      (transpose S128x128 [1, 0] (StableHlo.after hostOps0 (W0 m ρ c) (Proc.devRef .tc main_arg5)) Facts₀.transposes_S128x128_S128x128_1_0)
      (shapeCast S1x128 (StableHlo.after hostOps0 (W0 m ρ c) (Proc.devRef .tc main_arg6)) Facts₀.shapeCasts_S128_S1x128)
      (transpose S128x128 [1, 0] (StableHlo.after hostOps0 (W0 m ρ c) (Proc.devRef .tc main_arg7)) Facts₀.transposes_S128x128_S128x128_1_0) = _
  rw [pre_src, pre_dst, pre_recip, pre_keep_w2l, pre_keep_b2, pre_keep_w2r, hidden_eq m ρ h0 c]
  exact layer_eq _ _ _ _ _ _

end Cert.KernelIdeal.KValue

end
-- ==== Proof.RefValue.lean ====
/-
  The host program's result as the two-layer network of the specification.

  The host computes, per layer, the neighbour sum by a gather of source rows and a scatter-add into destination rows,
  divides it by the in-degree clipped below at one, multiplies by the transposed left weight, adds the bias, and adds
  the product of the layer's input with the transposed right weight; a relu follows the first layer. Read entry by
  entry this is the specification's linear stage on the neighbour mean: a product with a transposed weight at (r, j)
  is  Σ_k a[r,k] · W[j,k],  the bias broadcast along rows reads  b[j],  and the in-degree broadcast along columns reads
  max(cnt[r], 1). The gather and the two scatters are never opened: the terms the host builds for them are, after
  unfolding their names, the very terms the aggregation is defined by.
-/
import proofs.«153909_j27917287424274_1_alg».proof.Proof.Gen.ReferenceIdeal.Read
import proofs.«153909_j27917287424274_1_alg».proof.Proof.Spec
import proofs.«153909_j27917287424274_1_alg».proof.Proof.Agg

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The reference's shape facts and dimension records, bundled for the aggregation. -/
def dims : Cert.Sage.Dims :=
  ⟨slices_S2x1600000_S1x1600000_0_0, slices_S2x1600000_S1x1600000_1_0, shapeCasts_S1x1600000_S1600000,
   bcast_S_S1600000, bcast_S1600000_S1600000x1_0, bcast_S_S100000x128, bcast_S_S100000,
   gather_S100000x128_S1600000x1_S1600000x128_1_0_n_n_0_1_1128,
   scatter_S100000x128_S1600000x1_S1600000x128_1_0_0_1, scatter_S100000_S1600000x1_S1600000_n_0_0_1⟩

/-! ## The gather and the scatters are the aggregation's -/

/-- The first layer's neighbour sum is the aggregation of the input features. -/
theorem agg_v13 (x0 : FVec Ideal S100000x128 .f32) (x1 : IVec S2x1600000 32) :
    val_main_v13 (F := Ideal) x0 x1 = Cert.Sage.agg dims x1 x0 := by
  unfold val_main_v13 val_main_v10 val_main_v11 val_main_v12 val_main_v9 val_main_v8 val_main_v7 val_main_v6 val_main_v5
    val_main_v4 val_main_v3 val_main_v2 val_main_v1 val_main_v0 val_main_c val_main_c_0 val_main_cst
  unfold Cert.Sage.agg Cert.Sage.aggOf Cert.Sage.srcIdxOf Cert.Sage.dstIdxOf Cert.Sage.src Cert.Sage.dst
  rfl

/-- The first layer's in-degree is the aggregation's. -/
theorem cnt_v17 (x1 : IVec S2x1600000 32) :
    val_main_v17 (F := Ideal) x1 = Cert.Sage.cnt dims x1 := by
  unfold val_main_v17 val_main_v16 val_main_v15 val_main_v14 val_main_v3 val_main_v2 val_main_cst_1 val_main_cst_2
  unfold Cert.Sage.cnt Cert.Sage.cntOf Cert.Sage.dstIdxOf Cert.Sage.dst
  rfl

/-! ## The first layer, entry by entry -/

/-- The clipped in-degree the first layer divides by. -/
theorem clip_v19 (x1 : IVec S2x1600000 32) (r : Fin 100000) :
    val_main_v19 (F := Ideal) x1 (ix1 r) = Cert.Sage.clip (Cert.Sage.cnt dims x1) r := by
  rw [val_main_v19_apply, val_main_v18_apply, val_main_cst_3_apply, cnt_v17]
  rfl

/-- The first layer's quotient is the neighbour mean of the input features. -/
theorem mean_v22 (x0 : FVec Ideal S100000x128 .f32) (x1 : IVec S2x1600000 32) (r : Fin 100000) (k : Fin 128) :
    val_main_v22 (F := Ideal) x0 x1 (ix2 r k)
      = Cert.Sage.mean (Cert.Sage.agg dims x1 x0) (Cert.Sage.cnt dims x1) (ix2 r k) := by
  have e : idx_main_v20 (idx_main_v21 (ix2 r k)) = ix1 r :=
    funext fun a => Fin.ext (by match a with | ⟨0, _⟩ => rfl)
  rw [val_main_v22_apply, val_main_v21_apply, val_main_v20_apply, e, clip_v19, agg_v13]
  rfl

/-- The first layer before its relu is the specification's linear stage on the neighbour mean. -/
theorem lin_v30 (x0 : FVec Ideal S100000x128 .f32) (x1 : IVec S2x1600000 32) (x2 : FVec Ideal S128x128 .f32)
    (x3 : FVec Ideal S128 .f32) (x4 : FVec Ideal S128x128 .f32) (r : Fin 100000) (j : Fin 128) :
    val_main_v30 (F := Ideal) x0 x1 x2 x3 x4 (ix2 r j)
      = Cert.Sage.linAt (Cert.Sage.mean (Cert.Sage.agg dims x1 x0) (Cert.Sage.cnt dims x1)) x0 x2 x3 x4 r j := by
  have el : ∀ k : Fin 128, lidx_main_v24 (ix2 r j) k = ix2 r k := fun k =>
    funext fun a => Fin.ext (by match a with | ⟨0, _⟩ => rfl | ⟨1, _⟩ => rfl)
  have er : ∀ k : Fin 128, idx_main_v23 (ridx_main_v24 (ix2 r j) k) = ix2 j k := fun k =>
    funext fun a => Fin.ext (by match a with | ⟨0, _⟩ => rfl | ⟨1, _⟩ => rfl)
  have el' : ∀ k : Fin 128, lidx_main_v29 (ix2 r j) k = ix2 r k := fun k =>
    funext fun a => Fin.ext (by match a with | ⟨0, _⟩ => rfl | ⟨1, _⟩ => rfl)
  have er' : ∀ k : Fin 128, idx_main_v28 (ridx_main_v29 (ix2 r j) k) = ix2 j k := fun k =>
    funext fun a => Fin.ext (by match a with | ⟨0, _⟩ => rfl | ⟨1, _⟩ => rfl)
  have eb : idx_main_v25 (idx_main_v26 (ix2 r j)) = ix1 j :=
    funext fun a => Fin.ext (by match a with | ⟨0, _⟩ => rfl)
  have hl : ∀ k : Fin 128, val_main_v22 (F := Ideal) x0 x1 (lidx_main_v24 (ix2 r j) k)
        * val_main_v23 (F := Ideal) x2 (ridx_main_v24 (ix2 r j) k)
      = Cert.Sage.mean (Cert.Sage.agg dims x1 x0) (Cert.Sage.cnt dims x1) (ix2 r k) * x2 (ix2 j k) := fun k => by
    rw [el, val_main_v23_apply, er, mean_v22]
  have hr : ∀ k : Fin 128, x0 (lidx_main_v29 (ix2 r j) k) * val_main_v28 (F := Ideal) x4 (ridx_main_v29 (ix2 r j) k)
      = x0 (ix2 r k) * x4 (ix2 j k) := fun k => by
    rw [el', val_main_v28_apply, er']
  rw [val_main_v30_apply, val_main_v27_apply, val_main_v24_apply, val_main_v29_apply, val_main_v26_apply,
    val_main_v25_apply, eb, Finset.sum_congr rfl (fun k _ => hl k), Finset.sum_congr rfl (fun k _ => hr k)]
  rfl

/-- The relu of the first layer is the specification's hidden features. -/
theorem hidden_v31 (x0 : FVec Ideal S100000x128 .f32) (x1 : IVec S2x1600000 32) (x2 : FVec Ideal S128x128 .f32)
    (x3 : FVec Ideal S128 .f32) (x4 : FVec Ideal S128x128 .f32) :
    val_main_v31 (F := Ideal) x0 x1 x2 x3 x4
      = Cert.Sage.hidden (Cert.Sage.agg dims x1) (Cert.Sage.cnt dims x1) x0 x2 x3 x4 := by
  funext i
  obtain ⟨r, j, rfl⟩ : ∃ (r : Fin 100000) (j : Fin 128), i = ix2 r j := ⟨i 0, i 1, eq_ix2 i⟩
  rw [val_main_v31_apply, lin_v30, val_main_call0_v0_apply, val_main_call0_cst_apply]
  rfl

/-! ## The second layer, entry by entry -/

/-- The second layer's neighbour sum is the aggregation of the hidden features. -/
theorem agg_v41 (x0 : FVec Ideal S100000x128 .f32) (x1 : IVec S2x1600000 32) (x2 : FVec Ideal S128x128 .f32)
    (x3 : FVec Ideal S128 .f32) (x4 : FVec Ideal S128x128 .f32) :
    val_main_v41 (F := Ideal) x0 x1 x2 x3 x4 = Cert.Sage.agg dims x1 (val_main_v31 (F := Ideal) x0 x1 x2 x3 x4) := by
  unfold val_main_v41 val_main_v38
  generalize val_main_v31 (F := Ideal) x0 x1 x2 x3 x4 = h
  unfold val_main_v39 val_main_v40 val_main_v37 val_main_v36 val_main_v35 val_main_v34 val_main_v33
    val_main_v32 val_main_v3 val_main_v2 val_main_v1 val_main_v0 val_main_c_4 val_main_c_5 val_main_cst_6
  unfold Cert.Sage.agg Cert.Sage.aggOf Cert.Sage.srcIdxOf Cert.Sage.dstIdxOf Cert.Sage.src Cert.Sage.dst
  rfl

/-- The second layer's in-degree is the aggregation's. -/
theorem cnt_v45 (x1 : IVec S2x1600000 32) :
    val_main_v45 (F := Ideal) x1 = Cert.Sage.cnt dims x1 := by
  unfold val_main_v45 val_main_v44 val_main_v43 val_main_v42 val_main_v3 val_main_v2 val_main_cst_7 val_main_cst_8
  unfold Cert.Sage.cnt Cert.Sage.cntOf Cert.Sage.dstIdxOf Cert.Sage.dst
  rfl

/-- The clipped in-degree the second layer divides by. -/
theorem clip_v47 (x1 : IVec S2x1600000 32) (r : Fin 100000) :
    val_main_v47 (F := Ideal) x1 (ix1 r) = Cert.Sage.clip (Cert.Sage.cnt dims x1) r := by
  rw [val_main_v47_apply, val_main_v46_apply, val_main_cst_9_apply, cnt_v45]
  rfl

/-- The second layer's quotient is the neighbour mean of the hidden features. -/
theorem mean_v50 (x0 : FVec Ideal S100000x128 .f32) (x1 : IVec S2x1600000 32) (x2 : FVec Ideal S128x128 .f32)
    (x3 : FVec Ideal S128 .f32) (x4 : FVec Ideal S128x128 .f32) (r : Fin 100000) (k : Fin 128) :
    val_main_v50 (F := Ideal) x0 x1 x2 x3 x4 (ix2 r k)
      = Cert.Sage.mean (Cert.Sage.agg dims x1 (Cert.Sage.hidden (Cert.Sage.agg dims x1) (Cert.Sage.cnt dims x1) x0 x2 x3 x4))
          (Cert.Sage.cnt dims x1) (ix2 r k) := by
  have e : idx_main_v48 (idx_main_v49 (ix2 r k)) = ix1 r :=
    funext fun a => Fin.ext (by match a with | ⟨0, _⟩ => rfl)
  rw [val_main_v50_apply, val_main_v49_apply, val_main_v48_apply, e, clip_v47, agg_v41, hidden_v31]
  rfl

/-! ## The result -/

/-- The host program's result is the specification's network on the aggregation of the edge list. -/
theorem result_eq (x0 : FVec Ideal S100000x128 .f32) (x1 : IVec S2x1600000 32) (x2 : FVec Ideal S128x128 .f32)
    (x3 : FVec Ideal S128 .f32) (x4 x5 : FVec Ideal S128x128 .f32) (x6 : FVec Ideal S128 .f32)
    (x7 : FVec Ideal S128x128 .f32) :
    Cert.ReferenceIdeal.Read.val_main_v58 (F := Ideal) x0 x1 x2 x3 x4 x5 x6 x7
      = Cert.Sage.net (Cert.Sage.agg dims x1) (Cert.Sage.cnt dims x1) x0 x2 x3 x4 x5 x6 x7 := by
  funext i
  obtain ⟨r, j, rfl⟩ : ∃ (r : Fin 100000) (j : Fin 128), i = ix2 r j := ⟨i 0, i 1, eq_ix2 i⟩
  have el : ∀ k : Fin 128, lidx_main_v52 (ix2 r j) k = ix2 r k := fun k =>
    funext fun a => Fin.ext (by match a with | ⟨0, _⟩ => rfl | ⟨1, _⟩ => rfl)
  have er : ∀ k : Fin 128, idx_main_v51 (ridx_main_v52 (ix2 r j) k) = ix2 j k := fun k =>
    funext fun a => Fin.ext (by match a with | ⟨0, _⟩ => rfl | ⟨1, _⟩ => rfl)
  have el' : ∀ k : Fin 128, lidx_main_v57 (ix2 r j) k = ix2 r k := fun k =>
    funext fun a => Fin.ext (by match a with | ⟨0, _⟩ => rfl | ⟨1, _⟩ => rfl)
  have er' : ∀ k : Fin 128, idx_main_v56 (ridx_main_v57 (ix2 r j) k) = ix2 j k := fun k =>
    funext fun a => Fin.ext (by match a with | ⟨0, _⟩ => rfl | ⟨1, _⟩ => rfl)
  have eb : idx_main_v53 (idx_main_v54 (ix2 r j)) = ix1 j :=
    funext fun a => Fin.ext (by match a with | ⟨0, _⟩ => rfl)
  have hl : ∀ k : Fin 128, val_main_v50 (F := Ideal) x0 x1 x2 x3 x4 (lidx_main_v52 (ix2 r j) k)
        * val_main_v51 (F := Ideal) x5 (ridx_main_v52 (ix2 r j) k)
      = Cert.Sage.mean (Cert.Sage.agg dims x1 (Cert.Sage.hidden (Cert.Sage.agg dims x1) (Cert.Sage.cnt dims x1) x0 x2 x3 x4))
          (Cert.Sage.cnt dims x1) (ix2 r k) * x5 (ix2 j k) := fun k => by
    rw [el, val_main_v51_apply, er, mean_v50]
  have hr : ∀ k : Fin 128, val_main_v31 (F := Ideal) x0 x1 x2 x3 x4 (lidx_main_v57 (ix2 r j) k)
        * val_main_v56 (F := Ideal) x7 (ridx_main_v57 (ix2 r j) k)
      = Cert.Sage.hidden (Cert.Sage.agg dims x1) (Cert.Sage.cnt dims x1) x0 x2 x3 x4 (ix2 r k) * x7 (ix2 j k) := fun k => by
    rw [el', val_main_v56_apply, er', hidden_v31]
  rw [val_main_v58_apply, val_main_v55_apply, val_main_v52_apply, val_main_v57_apply, val_main_v54_apply,
    val_main_v53_apply, eb, Finset.sum_congr rfl (fun k _ => hl k), Finset.sum_congr rfl (fun k _ => hr k)]
  rfl

/-- The term the run leaves as its result is the specification's network on the run's arguments. -/
theorem res_eq (m : (ℓ : Loc nD τ sig) → Buf (Elt Ideal) ℓ) (c : Dev nD) :
    Cert.ReferenceIdeal.Value.res_main_v58 (F := Ideal) m c
      = Cert.Sage.net (Cert.Sage.agg dims (m ((c.tc : Thread nD τ).loc main_arg1)))
          (Cert.Sage.cnt dims (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) :=
  (val_main_v58_eq (F := Ideal) m c).trans (result_eq _ _ _ _ _ _ _ _)

end Cert.ReferenceIdeal.RefValue

end
-- ==== Proof.Bridge.lean ====
/-
  The two programs compute the neighbour sum and the in-degree with the same operations: their bundles of shape facts
  and dimension records are equal, so the specification's network built over either is the same function.
-/
import proofs.«153909_j27917287424274_1_alg».proof.Proof.Host
import proofs.«153909_j27917287424274_1_alg».proof.Proof.RefValue

noncomputable section

namespace Cert.Bridge

open Idealize.ShloMosaic

/-- The accelerator program's bundle is the reference's: the same literal records, the same facts. -/
theorem dims_eq : Cert.ReferenceIdeal.RefValue.dims = Cert.KernelIdeal.HostRead.dims := rfl

/-- Equal bundles and equal argument arrays give the same network. -/
theorem net_congr {d d' : Cert.Sage.Dims} (hd : d' = d) {ei ei' : IVec Cert.Sage.SEI 32} (he : ei' = ei)
    {x x' : Cert.Sage.SN.Idx → EReal} (hx : x' = x)
    {w1l w1l' : Cert.Sage.SW.Idx → EReal} (h2 : w1l' = w1l) {b1 b1' : Cert.Sage.SB.Idx → EReal} (h3 : b1' = b1)
    {w1r w1r' : Cert.Sage.SW.Idx → EReal} (h4 : w1r' = w1r) {w2l w2l' : Cert.Sage.SW.Idx → EReal} (h5 : w2l' = w2l)
    {b2 b2' : Cert.Sage.SB.Idx → EReal} (h6 : b2' = b2) {w2r w2r' : Cert.Sage.SW.Idx → EReal} (h7 : w2r' = w2r) :
    Cert.Sage.net (Cert.Sage.agg d' ei') (Cert.Sage.cnt d' ei') x' w1l' b1' w1r' w2l' b2' w2r'
      = Cert.Sage.net (Cert.Sage.agg d ei) (Cert.Sage.cnt d ei) x w1l b1 w1r w2l b2 w2r := by
  subst hd he hx h2 h3 h4 h5 h6 h7
  rfl

end Cert.Bridge

end
-- ==== Proof.lean ====
/-
  A two-layer GraphSAGE network with mean aggregation (100000 nodes, 1600000 edges, 128 features): the accelerator
  program against its array reference, equal as extended reals.

  Both programs form, per layer, the neighbour sum `agg f` of the features (a gather of source rows, a scatter-add into
  destination rows), the in-degree `cnt`, and the linear stage
      Σ_k μ[r,k]·W_l[j,k] + b[j] + Σ_k f[r,k]·W_r[j,k]    with   μ = agg f / max(cnt, 1),
  with `relu` between the layers. They differ in three ways, none of which changes the extended real computed:
  the accelerator program multiplies by the reciprocal `1 / max(cnt, 1)` where the reference divides (the clipped
  in-degree is at least one, never zero, and a product with the reciprocal of a nonzero extended real is the quotient);
  it adds the bias after both matrix products where the reference adds it between them (addition is commutative and
  associative); and it computes each layer's linear stage block by block — 5000 rows at a grid point — on transposed
  weights, which is the same sum entry by entry. The neighbour sum and the in-degree are the same operations with the
  same dimension records in both programs and are never opened. No finiteness of the inputs is used.

  The frames of the two accelerator programs and the run of the reference are generated modules; the accelerator
  program's value is read off its frame's segments (KernelRun, Region, Host, KernelValue), the reference's off its run
  (RefValue), and both are the specification's network (Spec, Agg).
-/
import proofs.«153909_j27917287424274_1_alg».proof.Defs
import proofs.«153909_j27917287424274_1_alg».proof.Proof.Gen.Kernel
import proofs.«153909_j27917287424274_1_alg».proof.Proof.Gen.Kernel.Frame
import proofs.«153909_j27917287424274_1_alg».proof.Proof.Gen.KernelIdeal
import proofs.«153909_j27917287424274_1_alg».proof.Proof.Gen.KernelIdeal.Frame
import proofs.«153909_j27917287424274_1_alg».proof.Proof.Gen.ReferenceIdeal
import proofs.«153909_j27917287424274_1_alg».proof.Proof.Gen.ReferenceIdeal.Run
import proofs.«153909_j27917287424274_1_alg».proof.Proof.Gen.Pre_finite_inputs
import proofs.«153909_j27917287424274_1_alg».proof.Proof.KernelRun
import proofs.«153909_j27917287424274_1_alg».proof.Proof.Region
import proofs.«153909_j27917287424274_1_alg».proof.Proof.KernelValue
import proofs.«153909_j27917287424274_1_alg».proof.Proof.RefValue
import proofs.«153909_j27917287424274_1_alg».proof.Proof.Bridge
import Idealize.ShloMosaic.Adequacy
import Idealize.ShloMosaic.Init

noncomputable section

namespace Cert.Proof

open Idealize.ShloMosaic Idealize.SL.Sem

/-- The word-level accelerator program runs and keeps its arguments: the generated frame. -/
theorem frame_k : Cert.frame_Kernel := fun m ρ _ => Cert.Kernel.Gen.frame m ρ

/-- The idealized accelerator program runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's network of the (agreeing) argument arrays in their result. -/
theorem algebraic : Cert.algebraic_KernelIdeal_ReferenceIdeal := fun m ρ m' ρ' _ hagree =>
  ⟨fun c => Cert.Sage.net
      (Cert.Sage.agg Cert.KernelIdeal.HostRead.dims (m ((c.tc : Thread Cert.KernelIdeal.nD Cert.KernelIdeal.τ).loc Cert.KernelIdeal.main_arg1)))
      (Cert.Sage.cnt Cert.KernelIdeal.HostRead.dims (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
   (θ_run Cert.KernelIdeal.defs _ _).mono
      (fun _ h c => ⟨(h c).1.trans (Cert.KernelIdeal.KValue.result_eq m ρ Cert.KernelIdeal.Region.final0 Cert.KernelIdeal.Region.final1 c), (h c).2⟩)
      (Cert.KernelIdeal.KRun.run_result (F := Ideal) m ρ),
   (θ_run Cert.ReferenceIdeal.defs _ _).mono
      (fun _ h c => ⟨(h c).1.trans ((Cert.ReferenceIdeal.RefValue.res_eq m' c).trans
          (Cert.Bridge.net_congr Cert.Bridge.dims_eq (hagree c).2.1 (hagree c).1 (hagree c).2.2.1 (hagree c).2.2.2.1
            (hagree c).2.2.2.2.1 (hagree c).2.2.2.2.2.1 (hagree c).2.2.2.2.2.2.1 (hagree c).2.2.2.2.2.2.2)), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
